-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : FVec F S50000x128 .f32) (main_arg2 : IVec S1600000 32) (main_arg3 : IVec S1600000 32) (main_arg4 : FVec F S128x128 .f32) (main_arg5 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S1600000 : Shape := ⟨1, ![1600000]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S5000x128 : Shape := ⟨2, ![5000, 128]⟩
abbrev S5000x1 : Shape := ⟨2, ![5000, 1]⟩
abbrev S5000 : Shape := ⟨1, ![5000]⟩

abbrev nBuf : Space → Nat
  | .hbm => 29
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128x128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S50000x128, .f32⟩
  | .hbm, ⟨17, _⟩ => ⟨S1600000x1, .i32⟩
  | .hbm, ⟨18, _⟩ => ⟨S50000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S50000, .f32⟩
  | .hbm, ⟨23, _⟩ => ⟨S1600000x1, .i32⟩
  | .hbm, ⟨24, _⟩ => ⟨S50000, .f32⟩
  | .hbm, ⟨25, _⟩ => ⟨S50000x1, .f32⟩
  | .hbm, ⟨26, _⟩ => ⟨S128x128, .f32⟩
  | .hbm, ⟨27, _⟩ => ⟨S128x128, .f32⟩
  | .hbm, ⟨28, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S5000x128_S5000 : S5000x128.Reduces [1] S5000
  shapeCasts_S5000_S5000x1 : S5000.ShapeCasts S5000x1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩

abbrev nBuf : Space → Nat
  | .hbm => 53
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128x128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S50000x128, .f32⟩
  | .hbm, ⟨17, _⟩ => ⟨S1600000x1, .i32⟩
  | .hbm, ⟨18, _⟩ => ⟨S50000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S50000, .f32⟩
  | .hbm, ⟨23, _⟩ => ⟨S1600000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S128x128, .f32⟩
  | .hbm, ⟨32, _⟩ => ⟨S50000x128, .f32⟩
  | .hbm, ⟨33, _⟩ => ⟨S128x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000, .f32⟩
  | .hbm, ⟨42, _⟩ => ⟨S50000x1, .f32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .i1⟩
  | .hbm, ⟨47, _⟩ => ⟨S_, .f32⟩
  | .hbm, ⟨48, _⟩ => ⟨S_, .f32⟩
  | .hbm, ⟨49, _⟩ => ⟨S50000x1, .f32⟩
  | .hbm, ⟨50, _⟩ => ⟨S50000x1, .f32⟩
  | .hbm, ⟨51, _⟩ => ⟨S50000x128, .f32⟩
  | .hbm, ⟨52, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_call1_v0 : Ref sig .tc := ⟨.hbm, 39, rfl⟩
abbrev main_call1_cst : Ref sig .tc := ⟨.hbm, 40, rfl⟩
abbrev main_call1_v1 : Ref sig .tc := ⟨.hbm, 41, rfl⟩
abbrev main_call1_v2 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_call2_v0 : Ref sig .tc := ⟨.hbm, 48, rfl⟩
abbrev main_call2_v1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Layer.lean ====
/-
  One graph layer, row by row, on the extended reals.

  A destination node `p` has its own features `hs p ·`, the sum `summed p ·` of the features its incoming
  edges carry, and its in-degree `deg p` (kept as a one-column matrix). With two 128 × 128 weight matrices,
  already transposed (`wst`, `wnt`: input feature first, output feature second), the layer computes

    mean p k  =  summed p k / max (deg p) 1                      (an isolated node divides by one)
    act  p q  =  max (Σ_k hs p k · wst k q  +  Σ_k mean p k · wnt k q) 0
    len  p    =  √ (Σ_q act p q · act p q)
    out  p q  =  act p q / (1 if len p = 0, else len p).

  Row `p` of the result reads row `p` of `hs`, `summed` and `deg` and nothing of any other row: so any block
  of consecutive rows of the result is the same formula on the matching blocks of rows (`out_rows`).
-/
import Idealize.ShloMosaic.PureOps.Ideal
import Idealize.ShloMosaic.Lib.ValueIdx

noncomputable section

namespace Cert.Layer

open Idealize.ShloMosaic Idealize.ShloMosaic.ValueIdx

/-- The f32 words of one and of zero, read as extended reals. -/
abbrev one : EReal := Ideal.ofBits .f32 0x3F800000#32
abbrev zero : EReal := Ideal.ofBits .f32 0x00000000#32

/-- A row length that is zero is replaced by one before dividing. -/
def guard (x : EReal) : EReal := Scalar.select (Ideal.cmp .oeq x zero) one x

variable (n : ℕ)
  (hs summed : (⟨2, ![n, 128]⟩ : Shape).Idx → EReal) (deg : (⟨2, ![n, 1]⟩ : Shape).Idx → EReal)
  (wst wnt : (⟨2, ![128, 128]⟩ : Shape).Idx → EReal)

/-- The mean of the features arriving at node `p`: their sum over the in-degree, an isolated node's degree raised to one. -/
def mean (p : Fin n) (k : Fin 128) : EReal :=
  Ideal.div (summed (ix2 p k)) (max (deg (ix2 p (0 : Fin 1))) one)

/-- The two projections added and cut off below at zero. -/
def act (p : Fin n) (q : Fin 128) : EReal :=
  max ((∑ k : Fin 128, hs (ix2 p k) * wst (ix2 k q)) + ∑ k : Fin 128, mean n summed deg p k * wnt (ix2 k q)) zero

/-- The Euclidean length of row `p` of `act`. -/
def len (p : Fin n) : EReal :=
  Ideal.sqrt (∑ q : Fin 128, act n hs summed deg wst wnt p q * act n hs summed deg wst wnt p q)

/-- The layer's result at node `p`, output feature `q`. -/
def out (p : Fin n) (q : Fin 128) : EReal :=
  Ideal.div (act n hs summed deg wst wnt p q) (guard (len n hs summed deg wst wnt p))

/-- The result as an array over `n` rows. -/
def outArr : (⟨2, ![n, 128]⟩ : Shape).Idx → EReal :=
  fun i => out n hs summed deg wst wnt (i 0) (i 1)

theorem outArr_ix2 (p : Fin n) (q : Fin 128) :
    outArr n hs summed deg wst wnt (ix2 p q) = out n hs summed deg wst wnt p q := rfl

variable {n hs summed deg wst wnt}

/-- ROWS ARE INDEPENDENT: if row `p'` of a second triple of arrays (over `n'` rows) is row `p` of the first,
    the two results agree on that row. -/
theorem out_rows {n' : ℕ} {hs' summed' : (⟨2, ![n', 128]⟩ : Shape).Idx → EReal} {deg' : (⟨2, ![n', 1]⟩ : Shape).Idx → EReal}
    {p : Fin n} {p' : Fin n'} (h0 : ∀ k : Fin 128, hs' (ix2 p' k) = hs (ix2 p k))
    (h1 : ∀ k : Fin 128, summed' (ix2 p' k) = summed (ix2 p k))
    (h2 : deg' (ix2 p' (0 : Fin 1)) = deg (ix2 p (0 : Fin 1))) (q : Fin 128) :
    out n' hs' summed' deg' wst wnt p' q = out n hs summed deg wst wnt p q := by
  have hm : ∀ k, mean n' summed' deg' p' k = mean n summed deg p k := fun k => by
    unfold mean; rw [h1 k, h2]
  have ha : ∀ q, act n' hs' summed' deg' wst wnt p' q = act n hs summed deg wst wnt p q := fun q => by
    unfold act; simp only [h0, hm]
  unfold out len
  simp only [ha]

end Cert.Layer

end
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.BlockRows.lean ====
/-
  What the body stores, at a row and a column of its block.

  At one grid point the body holds a block of 5000 rows of the node features, of the summed messages and of
  the degree column, and both whole weight matrices. A matrix unit product into a zero accumulator is, at
  (p, q), the sum over the 128 shared positions of the products; the lane reduction of a row is the sum of
  its 128 entries; the column made of the row lengths is spread back over the 128 lanes. Put together, the
  stored value at (p, q) is the layer's formula (`Cert.Layer.out`) on the 5000-row blocks.
-/
import proofs.«106474_j55551107007158_2_alg».proof.Proof.Gen.KernelIdeal.Skeleton
import proofs.«106474_j55551107007158_2_alg».proof.Proof.Layer
import proofs.«106474_j55551107007158_2_alg».proof.Proof.LibColumn
import Idealize.ShloMosaic.Lib.ValueIdx
import Idealize.ShloMosaic.Lib.Pipeline.Value
import Idealize.ShloMosaic.PureOps.Ideal.Laws

noncomputable section

namespace Cert.KernelIdeal.BlockRows

open Cert.KernelIdeal Cert.KernelIdeal.Gen Idealize.ShloMosaic Idealize.ShloMosaic.ValueIdx

theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000,128] × [128,128] product into a zero accumulator, at (p, q): row `p` of the left factor against
    column `q` of the right one. -/
theorem product_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs_col _ _)
  rw [el, er]

/-- The lane reduction of a [5000,128] block, at row `p`: the sum of the row's 128 entries. -/
theorem rowsum_at (v : FVec Ideal S5000x128 .f32) (p : Fin 5000) (hφ : FKind.Formats FTy.f32)
    (hacc : (0x00000000#32 : BitVec 32) = 0x00000000#32) :
    multiReduction .add [1] S5000 v 0x00000000#32 reduces_S5000x128_S5000 hφ hacc (ix1 p)
      = ∑ k : Fin 128, v (ix2 p k) := by
  refine (Ideal.multiReduction_add_single v 0x00000000#32 reduces_S5000x128_S5000 hφ hacc (ix1 p)).trans ?_
  refine Finset.sum_congr rfl fun k _ => congrArg v (funext fun a => Fin.ext ?_)
  match a with
  | ⟨0, _⟩ => rfl
  | ⟨1, _⟩ => rfl

theorem sqrt_at {s : Shape} (v : FVec Ideal s .f32) (i : s.Idx) : sqrt v i = Ideal.sqrt (v i) := rfl

/-- THE STORED VALUE at row `p`, column `q` of the block is the layer's formula on the blocks the body loaded:
    the features' rows, the summed messages' rows, the degree column's rows and the two weight matrices. -/
theorem payload_at (x0 x1 : Vec Ideal S5000x128 .f32) (x2 : Vec Ideal S5000x1 .f32) (x3 x4 : Vec Ideal S128x128 .f32)
    (p : Fin 5000) (q : Fin 128) :
    k0_pay1 x0 x1 x2 x3 x4 (ix2 p q) = Cert.Layer.out 5000 x0 x1 x2 x3 x4 p q := by
  unfold k0_pay1 Cert.Layer.out Cert.Layer.guard Cert.Layer.len Cert.Layer.act Cert.Layer.mean
  simp only [divf_apply, maximumf_apply, mulf_apply, addf_apply, truncf_apply, broadcast_apply, select_apply, cmpf_apply,
    sqrt_at, shapeCast_self, broadcastTo_a1_ab_apply, shapeCast_a_a1_apply, rowsum_at, product_at, Ideal.cmpf_def,
    Ideal.ofBits_def]
  rw [rowsum_at]
  simp only [maximumf_apply, mulf_apply, addf_apply, divf_apply, truncf_apply, broadcast_apply, broadcastTo_a1_ab_apply,
    product_at]

/-- So, when the loaded row blocks hold rows `r` of three 50000-row arrays at their rows `p` and the weight
    blocks are the whole weight matrices, the stored value at (p, q) is the layer's result on the whole arrays
    at (r, q). -/
theorem block_rows {A0 A1 : (⟨2, ![50000, 128]⟩ : Shape).Idx → EReal} {A2 : (⟨2, ![50000, 1]⟩ : Shape).Idx → EReal}
    {W3 W4 : (⟨2, ![128, 128]⟩ : Shape).Idx → EReal}
    (x0 x1 : Vec Ideal S5000x128 .f32) (x2 : Vec Ideal S5000x1 .f32) (x3 x4 : Vec Ideal S128x128 .f32)
    (r : Fin 50000) (p : Fin 5000) (q : Fin 128)
    (h0 : ∀ k : Fin 128, x0 (ix2 p k) = A0 (ix2 r k)) (h1 : ∀ k : Fin 128, x1 (ix2 p k) = A1 (ix2 r k))
    (h2 : x2 (ix2 p (0 : Fin 1)) = A2 (ix2 r (0 : Fin 1))) (h3 : x3 = W3) (h4 : x4 = W4) :
    k0_pay1 x0 x1 x2 x3 x4 (ix2 p q) = Cert.Layer.outArr 50000 A0 A1 A2 W3 W4 (ix2 r q) := by
  subst h3 h4
  rw [payload_at, Cert.Layer.outArr_ix2]
  exact Cert.Layer.out_rows h0 h1 h2 q

end Cert.KernelIdeal.BlockRows

end
-- ==== Proof.KernelRows.lean ====
/-
  From the blocks to the whole array.

  The grid has ten points; at point `t` the three row windows hold rows 5000·t … 5000·t + 4999 of their arrays
  (the node features, the summed messages, the degree column), the two weight windows hold their whole
  matrices, and the output window's block is the same band of rows of the result. Because a row of the
  layer's result depends on that row of the inputs only, what point `t` writes back is band `t` of ONE
  function of the whole arrays (`whole`), and the ten bands tile the 50000 rows: the result array ends at
  `whole`.
-/
import proofs.«106474_j55551107007158_2_alg».proof.Proof.Gen.KernelIdeal.Value
import proofs.«106474_j55551107007158_2_alg».proof.Proof.BlockRows
import proofs.«106474_j55551107007158_2_alg».proof.Proof.Layer
import Idealize.ShloMosaic.Lib.Pipeline.Value

noncomputable section

namespace Cert.KernelIdeal.KernelRows

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer's formula on the arrays as the region finds them: the node features, the summed messages, the
    degree column and the two transposed weight matrices. -/
def whole (c : Dev nD) : S50000x128.Idx → EReal :=
  Cert.Layer.outArr 50000 (V m c main_arg1) (V m c main_v9) (V m c main_v14) (V m c main_v15) (V m c main_v16)

/-- The printed index maps over the grid: the row windows and the output are at block (t, 0), the weights at (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of band `t` is row 5000·t + p of the array. -/
def rowOf (t : Fin cfg0.N) (p : Fin 5000) : Fin 50000 :=
  ⟨t.val * 5000 + p.val, by have := t.isLt; have hN : cfg0.N = 10 := N_0; have := p.isLt; omega⟩

/-! The windows' blocks, read for ANY contents of their arrays: only the index maps matter. -/

/-- Window 0 (node features): row `p` of band `t` is row 5000·t + p of the array. -/
theorem band0 (c : Dev nD) (A : Buf (Elt Ideal) ((c : Thread nD τ).loc main_arg1)) (t : Fin cfg0.N) (p : Fin 5000) (k : Fin 128) :
    (((cfg0.win 0).blk t).view.read (Elt Ideal) A : Vec Ideal S5000x128 .f32) (ix2 p k) = (A : S50000x128.Idx → EReal) (ix2 (rowOf t p) k) := by
  obtain ⟨e0, e1, -⟩ := index_facts t
  rw [View.read_apply]
  refine congrArg (A : S50000x128.Idx → EReal) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Window 1 (summed messages): the same band of rows. -/
theorem band1 (c : Dev nD) (A : Buf (Elt Ideal) ((c : Thread nD τ).loc main_v9)) (t : Fin cfg0.N) (p : Fin 5000) (k : Fin 128) :
    (((cfg0.win 1).blk t).view.read (Elt Ideal) A : Vec Ideal S5000x128 .f32) (ix2 p k) = (A : S50000x128.Idx → EReal) (ix2 (rowOf t p) k) := by
  obtain ⟨-, -, e0, e1, -⟩ := index_facts t
  rw [View.read_apply]
  refine congrArg (A : S50000x128.Idx → EReal) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- Window 2 (degree column): the same band of rows of the one column. -/
theorem band2 (c : Dev nD) (A : Buf (Elt Ideal) ((c : Thread nD τ).loc main_v14)) (t : Fin cfg0.N) (p : Fin 5000) :
    (((cfg0.win 2).blk t).view.read (Elt Ideal) A : Vec Ideal S5000x1 .f32) (ix2 p (0 : Fin 1)) = (A : S50000x1.Idx → EReal) (ix2 (rowOf t p) (0 : Fin 1)) := by
  obtain ⟨-, -, -, -, e0, e1, -⟩ := index_facts t
  rw [View.read_apply]
  refine congrArg (A : S50000x1.Idx → EReal) (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

/-- Window 3 (first weight matrix): the whole matrix at every point. -/
theorem all3 (c : Dev nD) (A : Buf (Elt Ideal) ((c : Thread nD τ).loc main_v15)) (t : Fin cfg0.N) :
    (((cfg0.win 3).blk t).view.read (Elt Ideal) A : Vec Ideal S128x128 .f32) = (A : S128x128.Idx → EReal) := by
  obtain ⟨-, -, -, -, -, -, e0, e1, -⟩ := index_facts t
  funext y
  rw [View.read_apply]
  refine congrArg (A : S128x128.Idx → EReal) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Window 4 (second weight matrix): likewise. -/
theorem all4 (c : Dev nD) (A : Buf (Elt Ideal) ((c : Thread nD τ).loc main_v16)) (t : Fin cfg0.N) :
    (((cfg0.win 4).blk t).view.read (Elt Ideal) A : Vec Ideal S128x128 .f32) = (A : S128x128.Idx → EReal) := by
  obtain ⟨-, -, -, -, -, -, -, -, e0, e1, -⟩ := index_facts t
  funext y
  rw [View.read_apply]
  refine congrArg (A : S128x128.Idx → EReal) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-! The same for the blocks the region's run names (each is its window's block of the array the region finds). -/

theorem rows0 (c : Dev nD) (t : Fin cfg0.N) (p : Fin 5000) (k : Fin 128) :
    (iblk m c 0 t : Vec Ideal S5000x128 .f32) (ix2 p k) = (V m c main_arg1 : S50000x128.Idx → EReal) (ix2 (rowOf t p) k) :=
  band0 c (V m c main_arg1) t p k

theorem rows1 (c : Dev nD) (t : Fin cfg0.N) (p : Fin 5000) (k : Fin 128) :
    (iblk m c 1 t : Vec Ideal S5000x128 .f32) (ix2 p k) = (V m c main_v9 : S50000x128.Idx → EReal) (ix2 (rowOf t p) k) :=
  band1 c (V m c main_v9) t p k

theorem rows2 (c : Dev nD) (t : Fin cfg0.N) (p : Fin 5000) :
    (iblk m c 2 t : Vec Ideal S5000x1 .f32) (ix2 p (0 : Fin 1)) = (V m c main_v14 : S50000x1.Idx → EReal) (ix2 (rowOf t p) (0 : Fin 1)) :=
  band2 c (V m c main_v14) t p

theorem weights3 (c : Dev nD) (t : Fin cfg0.N) :
    (iblk m c 3 t : Vec Ideal S128x128 .f32) = (V m c main_v15 : S128x128.Idx → EReal) :=
  all3 c (V m c main_v15) t

theorem weights4 (c : Dev nD) (t : Fin cfg0.N) :
    (iblk m c 4 t : Vec Ideal S128x128 .f32) = (V m c main_v16 : S128x128.Idx → EReal) :=
  all4 c (V m c main_v16) t

/-- WHAT POINT `t` WRITES BACK is band `t` of `whole`. -/
theorem flushed_eq (c : Dev nD) (t : Fin cfg0.N) :
    (dats m 0 c).flushed 5 t = ((cfg0.win 5).blk t).view.read (Elt Ideal) (whole m c) := by
  rw [flushed5]
  unfold out0_5
  rw [View.canon_unit_zero hz]
  simp only [View.ld_unit_zero (S := S5000x128) hz, View.ld_unit_zero (S := S5000x1) hz, View.ld_unit_zero (S := S128x128) hz]
  -- the stored block, coordinate by coordinate, is the band of `whole`
  have hP : ∀ (p : Fin 5000) (q : Fin 128),
      k0_pay1 (iblk m c 0 t) (iblk m c 1 t) (iblk m c 2 t) (iblk m c 3 t) (iblk m c 4 t) (ix2 p q)
        = whole m c (ix2 (rowOf t p) q) := fun p q =>
    Cert.KernelIdeal.BlockRows.block_rows (iblk m c 0 t) (iblk m c 1 t) (iblk m c 2 t) (iblk m c 3 t) (iblk m c 4 t)
      (rowOf t p) p q (fun k => rows0 m c t p k) (fun k => rows1 m c t p k) (rows2 m c t p) (weights3 m c t) (weights4 m c t)
  generalize k0_pay1 (iblk m c 0 t) (iblk m c 1 t) (iblk m c 2 t) (iblk m c 3 t) (iblk m c 4 t) = P at hP ⊢
  generalize whole m c = W at hP ⊢
  obtain ⟨-, -, -, -, -, -, -, -, -, -, e0, e1⟩ := index_facts t
  funext y
  obtain ⟨p, q, rfl⟩ : ∃ (p : Fin 5000) (q : Fin 128), y = ix2 p q := ⟨y 0, y 1, eq_ix2 y⟩
  have hemb : ((cfg0.win 5).blk t).view.emb (ix2 p q) = (ix2 (rowOf t p) q : S50000x128.Idx) := by
    funext a; apply Fin.ext
    match a with
    | ⟨0, _⟩ => show win0_5.index t (0 : Fin 2) * 5000 + 1 * p.val = t.val * 5000 + p.val; rw [e0]; omega
    | ⟨1, _⟩ => show win0_5.index t (1 : Fin 2) * 128 + 1 * q.val = q.val; rw [e1]; omega
  show P (ix2 p q) = W (((cfg0.win 5).blk t).view.emb (ix2 p q))
  rw [hemb]
  exact hP p q

/-- An index of the result array is in point `t`'s block iff each coordinate is in the block's range on its axis. -/
theorem mem_band (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v17).slice (win0_5.rect t)).set ↔ _
  rw [View.set_slice_whole, Rect.mem_set_unit]
  exact Iff.rfl

/-- THE BANDS TILE THE ROWS: row `r` is in the band of point `r / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, -, -, -, -, -, e0, e1⟩ := index_facts t
  refine ⟨t, flush0_5 t, ?_⟩
  rw [mem_band]
  intro a
  match a with
  | ⟨0, _⟩ => show win0_5.index t (0 : Fin 2) * 5000 ≤ (i 0).val ∧ (i 0).val < win0_5.index t (0 : Fin 2) * 5000 + 5000; rw [e0]; omega
  | ⟨1, _⟩ => show win0_5.index t (1 : Fin 2) * 128 ≤ (i 1).val ∧ (i 1).val < win0_5.index t (1 : Fin 2) * 128 + 128; rw [e1]; omega

/-- THE RESULT ARRAY after the run. -/
theorem final (c : Dev nD) : (dats m 0 c).arrAt 5 cfg0.N = whole m c :=
  (dats m 0 c).arrAt_eq_of_cover 5 (whole m c) (fun t _ => flushed_eq m c t) cover

/-- The kernel's run, read: the result array at `whole`, the arguments unchanged. -/
theorem run : θ_run defs (onTc (τ := τ) (main (F := Ideal))) ⟨m, fun _ => 0, ρ⟩ fun r => ∀ c : Dev nD,
      r.2.mem ((c : Thread nD τ).loc main_v17) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.KernelRows

end
-- ==== Proof.RefRows.lean ====
/-
  The reference, read row by row.

  The reference divides the summed messages by the in-degree raised to one, multiplies the node features
  and these means by the two transposed weight matrices (each host product a sum over the 128 shared
  positions), adds, cuts off at zero, takes each row's Euclidean length (a host sum from a zero start, then a
  square root), replaces a zero length by one and divides. Read at node `p` and output feature `q`, stage by
  stage, this is `Cert.Layer.out` on the whole 50000-row arrays; the summed messages, the in-degrees and the
  transposed weights stay the unopened terms the program computes them by.
-/
import proofs.«106474_j55551107007158_2_alg».proof.Proof.Gen.ReferenceIdeal.Read
import proofs.«106474_j55551107007158_2_alg».proof.Proof.Layer

noncomputable section

namespace Cert.ReferenceIdeal.RefRows

open Cert.ReferenceIdeal Cert.ReferenceIdeal.Gen Cert.ReferenceIdeal.Read Idealize.ShloMosaic Idealize.ShloMosaic.ValueIdx

variable (x0 x1 : (⟨S50000x128, .f32⟩ : BufTy).Contents (Elt Ideal)) (x2 x3 : (⟨S1600000, .i32⟩ : BufTy).Contents (Elt Ideal))
  (x4 x5 : (⟨S128x128, .f32⟩ : BufTy).Contents (Elt Ideal))

/-- The in-degrees as a one-column matrix. -/
def degCol : (⟨S50000x1, .f32⟩ : BufTy).Contents (Elt Ideal) :=
  broadcastInDim S50000x1 ![0] bcast_S50000_S50000x1_0 (val_main_v13 (F := Ideal) x3)

/-- Its entry of row `p` is node `p`'s in-degree. -/
theorem degCol_at (p : Fin 50000) : degCol x3 (ix2 p (0 : Fin 1)) = val_main_v13 (F := Ideal) x3 (ix1 p) := by
  unfold degCol
  generalize val_main_v13 (F := Ideal) x3 = y
  exact broadcastInDim_apply _ bcast_S50000_S50000x1_0 y (ix2 p (0 : Fin 1)) (ix1 p) (fun a => match a with
    | ⟨0, _⟩ => by show p.val = if (50000 : Nat) = 1 then 0 else p.val; rw [if_neg (by decide)])

/-! The stages' index functions at coordinates. -/

theorem col0_of_v17 (p : Fin 50000) (k : Fin 128) : idx_main_v17 (ix2 p k) = ix2 p (0 : Fin 1) :=
  funext fun a => Fin.ext (by match a with | ⟨0, _⟩ => rfl | ⟨1, _⟩ => rfl)
theorem row_of_v16 (p : Fin 50000) (u : Fin 1) : idx_main_v16 (ix2 p u) = ix1 p :=
  funext fun a => Fin.ext (by match a with | ⟨0, _⟩ => rfl)
theorem col0_of_v29 (p : Fin 50000) (q : Fin 128) : idx_main_v29 (ix2 p q) = ix2 p (0 : Fin 1) :=
  funext fun a => Fin.ext (by match a with | ⟨0, _⟩ => rfl | ⟨1, _⟩ => rfl)
theorem row_of_len (p : Fin 50000) (u : Fin 1) : idx_main_call1_v2 (ix2 p u) = ix1 p :=
  funext fun a => Fin.ext (by match a with | ⟨0, _⟩ => rfl)
theorem entry_of_row (p : Fin 50000) (k : Fin 128) : idx_main_call1_v1 (ix1 p) k = ix2 p k :=
  funext fun a => Fin.ext (by match a with | ⟨0, _⟩ => rfl | ⟨1, _⟩ => rfl)
theorem left_v20 (p : Fin 50000) (q k : Fin 128) : lidx_main_v20 (ix2 p q) k = ix2 p k :=
  funext fun a => Fin.ext (by match a with | ⟨0, _⟩ => rfl | ⟨1, _⟩ => rfl)
theorem right_v20 (p : Fin 50000) (q k : Fin 128) : ridx_main_v20 (ix2 p q) k = ix2 k q :=
  funext fun a => Fin.ext (by match a with | ⟨0, _⟩ => rfl | ⟨1, _⟩ => rfl)
theorem left_v22 (p : Fin 50000) (q k : Fin 128) : lidx_main_v22 (ix2 p q) k = ix2 p k :=
  funext fun a => Fin.ext (by match a with | ⟨0, _⟩ => rfl | ⟨1, _⟩ => rfl)
theorem right_v22 (p : Fin 50000) (q k : Fin 128) : ridx_main_v22 (ix2 p q) k = ix2 k q :=
  funext fun a => Fin.ext (by match a with | ⟨0, _⟩ => rfl | ⟨1, _⟩ => rfl)

/-- The quotient stage at (p, k) is the mean of the messages arriving at node `p`. -/
theorem mean_at (p : Fin 50000) (k : Fin 128) :
    val_main_v18 (F := Ideal) x0 x2 x3 (ix2 p k)
      = Cert.Layer.mean 50000 (val_main_v9 (F := Ideal) x0 x2 x3) (degCol x3) p k := by
  rw [val_main_v18_apply, val_main_v17_apply, col0_of_v17, val_main_v16_apply, row_of_v16, val_main_v15_apply,
    val_main_v14_apply, val_main_cst_3_apply]
  unfold Cert.Layer.mean
  rw [degCol_at]
  simp only [Ideal.hostDivf_def, Ideal.maximumf_def, Ideal.ofBits_def]

/-- The stage after the cut-off at zero, at (p, q). -/
theorem act_at (p : Fin 50000) (q : Fin 128) :
    val_main_v24 (F := Ideal) x0 x1 x2 x3 x4 x5 (ix2 p q)
      = Cert.Layer.act 50000 x1 (val_main_v9 (F := Ideal) x0 x2 x3) (degCol x3) (val_main_v19 (F := Ideal) x4) (val_main_v21 (F := Ideal) x5) p q := by
  rw [val_main_v24_apply, val_main_v23_apply, val_main_v20_apply, val_main_v22_apply, val_main_call0_v0_apply,
    val_main_call0_cst_apply]
  unfold Cert.Layer.act
  simp only [left_v20, right_v20, left_v22, right_v22, mean_at, Ideal.addf_def, Ideal.maximumf_def, Ideal.ofBits_def]

/-- The row-length stage, at row `p`. -/
theorem len_at (p : Fin 50000) (u : Fin 1) :
    val_main_v25 (F := Ideal) x0 x1 x2 x3 x4 x5 (ix2 p u)
      = Cert.Layer.len 50000 x1 (val_main_v9 (F := Ideal) x0 x2 x3) (degCol x3) (val_main_v19 (F := Ideal) x4) (val_main_v21 (F := Ideal) x5) p := by
  rw [val_main_v25_apply, val_main_call1_v2_apply, row_of_len, val_main_call1_v1_apply, val_main_call1_cst_apply]
  unfold Cert.Layer.len
  simp only [entry_of_row, val_main_call1_v0_apply, act_at, Ideal.hostUnary_sqrt_def, Ideal.mulf_def, Ideal.ofBits_def,
    Ideal.ofBits_zero_f32, zero_add]

/-- THE REFERENCE'S RESULT is the layer's formula on the whole arrays. -/
theorem result_eq :
    val_main_v30 (F := Ideal) x0 x1 x2 x3 x4 x5
      = Cert.Layer.outArr 50000 x1 (val_main_v9 (F := Ideal) x0 x2 x3) (degCol x3) (val_main_v19 (F := Ideal) x4) (val_main_v21 (F := Ideal) x5) := by
  funext i
  obtain ⟨p, q, rfl⟩ : ∃ (p : Fin 50000) (q : Fin 128), i = ix2 p q := ⟨i 0, i 1, eq_ix2 i⟩
  rw [Cert.Layer.outArr_ix2, val_main_v30_apply, val_main_v29_apply, col0_of_v29, val_main_v28_apply, val_main_v27_apply,
    val_main_v26_apply, val_main_cst_4_apply, val_main_call2_v1_apply, val_main_call2_v0_apply, val_main_cst_5_apply,
    len_at, act_at]
  unfold Cert.Layer.out Cert.Layer.guard
  simp only [Ideal.hostDivf_def, Ideal.cmpf_def, Ideal.ofBits_def]

end Cert.ReferenceIdeal.RefRows

end
-- ==== Proof.HostPrefix.lean ====
/-
  Before the kernel is launched its program runs, on the host, the very operations the reference begins with:
  the source rows gathered along the edges and added up per destination node, the edges counted per
  destination node, the count made a column, and the two weight matrices transposed. So the arrays the
  kernel's windows read are the reference's own stages of the same arguments: the same operations applied
  to the same arrays, never opened.
-/
import proofs.«106474_j55551107007158_2_alg».proof.Proof.Gen.KernelIdeal.Frame
import proofs.«106474_j55551107007158_2_alg».proof.Proof.Gen.ReferenceIdeal.Read
import proofs.«106474_j55551107007158_2_alg».proof.Proof.RefRows
import Idealize.ShloMosaic.Lib.StableHlo.Run

noncomputable section

namespace Cert.HostPrefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (c : Dev nD)

/-- The summed messages the region finds are the reference's scatter stage. -/
theorem found_summed :
    (V m c main_v9 : S50000x128.Idx → EReal)
      = Cert.ReferenceIdeal.Read.val_main_v9 (F := Ideal) (m ((c : Thread nD τ).loc main_arg0))
          (m ((c : Thread nD τ).loc main_arg2)) (m ((c : Thread nD τ).loc main_arg3)) := by
  dsimp only [Gen.V, Gen.hostOps0]
  after_results
  rfl

/-- The degree column the region finds is the reference's edge count, as a column. -/
theorem found_degree :
    (V m c main_v14 : S50000x1.Idx → EReal)
      = Cert.ReferenceIdeal.RefRows.degCol (m ((c : Thread nD τ).loc main_arg3)) := by
  dsimp only [Gen.V, Gen.hostOps0]
  after_results
  rfl

/-- The first transposed weight matrix. -/
theorem found_wst :
    (V m c main_v15 : S128x128.Idx → EReal)
      = Cert.ReferenceIdeal.Read.val_main_v19 (F := Ideal) (m ((c : Thread nD τ).loc main_arg4)) := by
  dsimp only [Gen.V, Gen.hostOps0]
  after_results
  rfl

/-- The second. -/
theorem found_wnt :
    (V m c main_v16 : S128x128.Idx → EReal)
      = Cert.ReferenceIdeal.Read.val_main_v21 (F := Ideal) (m ((c : Thread nD τ).loc main_arg5)) := by
  dsimp only [Gen.V, Gen.hostOps0]
  after_results
  rfl

end Cert.HostPrefix

end
-- ==== Proof.lean ====
/-
  A graph layer with mean aggregation: kernel against reference, on the extended reals.

  Both programs first gather the source nodes' features along 1 600 000 edges, add them up per destination
  node and count the edges per destination node; these operations are the same in both and are never opened.
  The reference then divides the sums by the counts (a count of zero raised to one), multiplies the node
  features and these means by the two transposed weight matrices, adds, cuts off at zero, and divides each
  row by its Euclidean length (a zero length replaced by one). The kernel does the same in ten bands of 5000
  rows: it divides inside the band, multiplies on the matrix unit into zero accumulators (a change of float
  format is the identity on the extended reals), and normalises each row by a lane reduction.

  A row of the result depends on that row of the features, of the sums and of the counts, and on the weights:
  so each band the kernel writes is a band of ONE function of the whole arrays (`Cert.Layer.outArr`), the ten
  bands tile the rows (Proof/KernelRows.lean over Proof/BlockRows.lean), and the reference's stages read row by
  row are the same function (Proof/RefRows.lean). The sums over the 128 shared positions and over the 128 lanes
  appear with the same grouping on both sides; no law of arithmetic is needed beyond that, and the
  precondition is never opened.
-/
import proofs.«106474_j55551107007158_2_alg».proof.Defs
import proofs.«106474_j55551107007158_2_alg».proof.Proof.Gen.Kernel
import proofs.«106474_j55551107007158_2_alg».proof.Proof.Gen.Kernel.Frame
import proofs.«106474_j55551107007158_2_alg».proof.Proof.Gen.KernelIdeal
import proofs.«106474_j55551107007158_2_alg».proof.Proof.Gen.KernelIdeal.Frame
import proofs.«106474_j55551107007158_2_alg».proof.Proof.Gen.KernelIdeal.Value
import proofs.«106474_j55551107007158_2_alg».proof.Proof.Gen.ReferenceIdeal
import proofs.«106474_j55551107007158_2_alg».proof.Proof.Gen.ReferenceIdeal.Run
import proofs.«106474_j55551107007158_2_alg».proof.Proof.Gen.ReferenceIdeal.Read
import proofs.«106474_j55551107007158_2_alg».proof.Proof.Gen.Pre_finite_inputs
import proofs.«106474_j55551107007158_2_alg».proof.Proof.KernelRows
import proofs.«106474_j55551107007158_2_alg».proof.Proof.RefRows
import proofs.«106474_j55551107007158_2_alg».proof.Proof.HostPrefix
import Idealize.ShloMosaic.Adequacy
import Idealize.ShloMosaic.Init

noncomputable section

namespace Cert.Proof

open Idealize.ShloMosaic Idealize.SL.Sem

/-- The kernel's program runs and leaves its arguments as they were (at the word level and on the extended reals). -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel's text on the extended reals rewrote no operation. -/
theorem preserves : Cert.preserves_Kernel_KernelIdeal := trivial

/-- From memories that agree on the six arguments, the kernel's result array ends at the layer's formula on the
    arrays its host prefix computed, the reference's at the same formula on its own early stages — the same
    operations on the same arguments. -/
theorem algebraic : Cert.algebraic_KernelIdeal_ReferenceIdeal := by
  intro m ρ m' ρ' _ hagree
  refine ⟨fun c => Cert.KernelIdeal.KernelRows.whole m c, Cert.KernelIdeal.KernelRows.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  show _ = Cert.KernelIdeal.KernelRows.whole m c
  rw [Cert.ReferenceIdeal.Read.val_main_v30_eq, Cert.ReferenceIdeal.RefRows.result_eq, a0, a1, a2, a3, a4, a5]
  unfold Cert.KernelIdeal.KernelRows.whole
  rw [Cert.HostPrefix.found_summed, Cert.HostPrefix.found_degree, Cert.HostPrefix.found_wst, Cert.HostPrefix.found_wnt,
    Cert.KernelIdeal.Gen.V_main_arg1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
